-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x128 : Shape := ⟨2, ![1024, 128]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128, .bf16⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S1024x1, .f32⟩
  | .local _ .vmem, ⟨4, _⟩ => ⟨S1024x1, .f32⟩
  | .local _ .vmem, ⟨5, _⟩ => ⟨S1x8192, .f32⟩
  | .local _ .vmem, ⟨6, _⟩ => ⟨S1024x1024, .f32⟩
  | .local _ .vmem, ⟨7, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def k0_off2 (i : grid0.Coords) : Fin 2 → Nat :=
  let c0_0 : Index := 0#32
  let arg1 : BitVec 32 := BitVec.ofNat 32 (i 1).val
  let c1024_i32 : BitVec 32 := 1024#32
  let v0 : BitVec 32 := Scalar.muli arg1 c1024_i32
  let v1 : BitVec 32 := v0
  let v5 : Index := Scalar.indexCast v1
  ![0, v5.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  h_S1024x128 : 0 < S1024x128.numel
  shapeCasts_S1024x128_S1024x128 : S1024x128.ShapeCasts S1024x128
  h_S1x1024 : 0 < S1x1024.numel
  shapeCasts_S1x1024_S1x1024 : S1x1024.ShapeCasts S1x1024
  inb_S1024x128_S1024x128_0_0 : ∀ a, (![0, 0] : Fin 2 → Nat) a + S1024x128.size a ≤ S1024x128.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x128_S1024x128_S1024x1024_1_1_0_0_n_n_wf : DotDims.WF S1024x128 S1024x128 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S8192x128.size a
  k0_off2_inb : ∀ i : grid0.Coords, ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S128x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.FrameK.lean ====
/-
  The kernel's run as printed (the word-level program), stated for every float instance.

  The kernel is one grid of 8 x 8 points. At point (i, j) it reads the i-th block of 1024 rows of the feature matrix
  (window 0), the WHOLE feature matrix (window 1, resident: the body cuts rows 1024 j .. 1024 j + 1023 out of it
  itself), the i-th block of 1024 squared row norms as a column (window 2), the WHOLE row of squared norms (window 3:
  the body cuts lanes 1024 j .. 1024 j + 1023) and writes the (i, j) block of 1024 x 1024 distances (window 4).
  Windows 0 and 1 are two views of ONE array in memory, so that array's ownership is divided between them: each
  holds one half of it, which is enough to read.

  This module gives: what the region finds in memory (the host operations before it applied to the launch memory),
  what the body leaves in the output's staging buffer as a function of the four input buffers, the body's triple,
  the proof data of the pipeline, and the run: every weakly fair execution ends, with the distance array at what the
  write-backs leave and every array the region does not touch as the region found it.
-/
import proofs.«166201_j32658931319006_2_alg».proof.Proof.Gen.Kernel.Launch
import proofs.«166201_j32658931319006_2_alg».proof.Proof.Gen.Kernel.Skeleton
import proofs.«166201_j32658931319006_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory as the region finds it -/

/-- Core `c`'s buffers when the region is entered: the launch memory after the seven host operations (the change of
    format and back, the squares, the zero, the row sums and their two reshapes). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its buffer as found holds its block at every point, fetched there or not
    (when it is not fetched its block index has not moved). -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = (cfg0.win w).fill (cfg0.grid.coords t) d (iblk m c w t) :=
  (dat.before_in_eq_fetched w hw hlive hclip (fun t => by rw [hafter]; unfold Dat.blockOf iblk; rw [hA]) t d).trans
    (by unfold Dat.fetched Dat.blockOf iblk; rw [hA])

/-! ## The body's accesses -/

/-- Rows `1024 j .. 1024 j + 1023` of the resident feature matrix. -/
abbrev rRows (i : grid0.Coords) : Rect S8192x128 := Rect.unit (s := S8192x128) (k0_off1 i) S1024x128.size (k0_off1_inb i)
/-- Lanes `1024 j .. 1024 j + 1023` of the resident row of squared norms. -/
abbrev rLanes (i : grid0.Coords) : Rect S1x8192 := Rect.unit (s := S1x8192) (k0_off2 i) S1x1024.size (k0_off2_inb i)
abbrev rFi : Rect S1024x128 := Rect.unit (s := S1024x128) ![0, 0] S1024x128.size inb_S1024x128_S1024x128_0_0
abbrev rSqi : Rect S1024x1 := Rect.unit (s := S1024x1) ![0, 0] S1024x1.size inb_S1024x1_S1024x1_0_0
abbrev rOut : Rect S1024x1024 := Rect.unit (s := S1024x1024) ![0, 0] S1024x1024.size inb_S1024x1024_S1024x1024_0_0

/-- What the body leaves in the output's staging buffer at grid coordinates `i`, from what the four input buffers
    hold: its one store, of the payload over the four loads. -/
def outBlock (i : grid0.Coords) (x0 : Vec F S1024x128 .bf16) (x1 : Vec F S8192x128 .bf16) (x2 : Vec F S1024x1 .f32)
    (x3 : Vec F S1x8192 .f32) : Vec F S1024x1024 .f32 :=
  View.canon [⟨rOut, k0_pay1 (View.ld x1 (rRows i)) (View.ld x3 (rLanes i)) (View.ld x0 rFi) (View.ld x2 rSqi)⟩]

/-- The one store fills the buffer. -/
theorem outCover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The body on whole staging memrefs, the inputs' at read contents `x0 .. x3` and the output's at anything, runs to
    the continuation holding the inputs' as they were and the output's at `outBlock`. -/
theorem sound_kernel (c : Dev nD) (E : Set ℕ) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .f32) (harg4 : arg4.IsWhole) (arg5 : Memref sig .tc .vmem S1x8192 .f32) (harg5 : arg5.IsWhole)
    (arg6 : Memref sig .tc .vmem S1024x1024 .f32) (harg6 : arg6.IsWhole)
    (x0 : Vec F S1024x128 .bf16) (x1 : Vec F S8192x128 .bf16) (x2 : Vec F S1024x1 .f32) (x3 : Vec F S1x8192 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock i x0 x1 x2 x3)) -∗ K ⟨⟩))
      ⊢ wp frame (wpE (defs₀ (F := F)) Variants.none c none) E (cc0__sim_kernel i arg2 harg2 arg3 harg3 arg4 harg4 arg5 harg5 arg6 harg6) K := by
  simp only [cc0__sim_kernel_eq_skeleton]; unfold cc0__sim_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

end Cert.Kernel.Hand

end
-- ==== Proof.RunK.lean ====
/-
  The pipeline's proof data for the kernel as printed, the body's obligation at every grid point, how the one array
  two windows read is divided between them, and the run.
-/
import proofs.«166201_j32658931319006_2_alg».proof.Proof.FrameK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data on core `c`: the arrays as the region finds them; after the body at point `t` each input's
    buffer still at its block and the output's at `outBlock` of the four input blocks; the invariant the core's scoped
    buffers that are no staging buffer; nothing owed; the feature matrix's two windows each hold one half of its
    ownership, every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (grid0.coords t) (iblk m c 0 t) (iblk m c 1 t) (iblk m c 2 t) (iblk m c 3 t) := by dsimp only [dats]

/-- Each input's current staging buffer holds its block at every point. -/
theorem before0_0 (c : Dev nD) (t : Fin cfg0.N) (d) : (dats m 0 c).before 0 t d = iblk m c 0 t :=
  (before_in_of m (dats m 0 c) 0 rfl (fun _ => rfl) (fun _ _ _ => rfl) (A_eq m c 0) (fun t => by rw [after0_0]) t d).trans rfl
theorem before0_1 (c : Dev nD) (t : Fin cfg0.N) (d) : (dats m 0 c).before 1 t d = iblk m c 1 t :=
  (before_in_of m (dats m 0 c) 1 rfl (fun _ => rfl) (fun _ _ _ => rfl) (A_eq m c 1) (fun t => by rw [after0_1]) t d).trans rfl
theorem before0_2 (c : Dev nD) (t : Fin cfg0.N) (d) : (dats m 0 c).before 2 t d = iblk m c 2 t :=
  (before_in_of m (dats m 0 c) 2 rfl (fun _ => rfl) (fun _ _ _ => rfl) (A_eq m c 2) (fun t => by rw [after0_2]) t d).trans rfl
theorem before0_3 (c : Dev nD) (t : Fin cfg0.N) (d) : (dats m 0 c).before 3 t d = iblk m c 3 t :=
  (before_in_of m (dats m 0 c) 3 rfl (fun _ => rfl) (fun _ _ _ => rfl) (A_eq m c 3) (fun t => by rw [after0_3]) t d).trans rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LaunchK.lean ====
/-
  The launch of the kernel's region (the program as printed) and what the run leaves in memory.

  The feature matrix is read through two windows. The launch hands the pipeline each array's buffer whole; this
  module divides the feature matrix's buffer into two halves of its ownership, one per window, and leaves every other
  array whole. Both windows only read, so each keeps its half at the contents the region found. Every buffer no
  window stages (the argument array among them) goes round the region and is read back at the end as the region
  found it.
-/
import proofs.«166201_j32658931319006_2_alg».proof.Proof.RunK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, listed: the feature matrix (two windows), the column of squared norms,
    the row of squared norms, the distances. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v4) ↦{fullShare} W main_v4)
          ∗ (((c : Thread nD τ).loc main_v5) ↦{fullShare} W main_v5) ∗ (((c : Thread nD τ).loc main_v6) ↦{fullShare} W main_v6)) := by
  unfold Pipeline.arrBufs
  exact bigSep_eq_bigSepL_of_eq [main_v0, main_v4, main_v5, main_v6] (by decide) (by decide) _

/-- The launch's whole buffers make the proof data's arrays at entry: the feature matrix's buffer divided in two. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have e0 : (cfg0.win 0).arr.view.set = Finset.univ := (arr_whole0 0).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  rw [e0, e2, e3, e4]
  iintro ⟨HA, H4, H5, H6⟩
  ihave HB := (pointsTo_share (PosShare.mem_left_op_right fullShare)).1 $$ HA
  icases HB with ⟨Hl, Hr⟩
  isplitl [Hl]; · iexact Hl
  isplitl [Hr]; · iexact Hr
  isplitl [H4]; · iexact H4
  isplitl [H5]; · iexact H5
  iexact H6

/-- What the run leaves: the distance array at what the write-backs left, the argument array as launched. -/
def RunPost (r : PUnit × MemSt nD τ sig (Elt F)) : Prop :=
  ∀ c : Dev nD, r.2.mem ((c.tc : Thread nD τ).loc main_v6) = (dats m 0 c).arrAt 4 cfg0.N
    ∧ r.2.mem ((c.tc : Thread nD τ).loc main_arg0) = m ((c.tc : Thread nD τ).loc main_arg0)

set_option backward.isDefEq.respectTransparency.types false in
/-- For any float values, from any memory with zero counters: every weakly fair execution of @main terminates, nothing
    faulting, the distance array holding what the write-backs left and the argument array unchanged. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => Idealize.SL.BI.emp_sep_elim)
    (hout := fun c => Idealize.SL.BI.emp_sep_intro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1 4,
      ((h c).2 main_arg0 (Pipeline.mem_restRefs_of main_arg0 (by decide) (by decide))).trans (V_main_arg0 m c)⟩)

/-- The frame: the program runs to the end, nothing faulting, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.FrameKI.lean ====
/-
  The idealized kernel's run, stated once for every float instance.

  The kernel is one grid of 8 x 8 points. At point (i, j) it reads the i-th block of 1024 rows of the feature matrix
  (window 0), the WHOLE feature matrix (window 1, resident: the body cuts rows 1024 j .. 1024 j + 1023 out of it
  itself), the i-th block of 1024 squared row norms as a column (window 2), the WHOLE row of squared norms (window 3:
  the body cuts lanes 1024 j .. 1024 j + 1023) and writes the (i, j) block of 1024 x 1024 distances (window 4).
  Windows 0 and 1 are two views of ONE array in memory, so that array's ownership is divided between them: each
  holds one half of it, which is enough to read.

  This module gives: what the region finds in memory (the host operations before it applied to the launch memory),
  what the body leaves in the output's staging buffer as a function of the four input buffers, the body's triple,
  the proof data of the pipeline, and the run: every weakly fair execution ends, with the distance array at what the
  write-backs leave and every array the region does not touch as the region found it.
-/
import proofs.«166201_j32658931319006_2_alg».proof.Proof.Gen.KernelIdeal.Launch
import proofs.«166201_j32658931319006_2_alg».proof.Proof.Gen.KernelIdeal.Skeleton
import proofs.«166201_j32658931319006_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory as the region finds it -/

/-- Core `c`'s buffers when the region is entered: the launch memory after the seven host operations (the change of
    format and back, the squares, the zero, the row sums and their two reshapes). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its buffer as found holds its block at every point, fetched there or not
    (when it is not fetched its block index has not moved). -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = (cfg0.win w).fill (cfg0.grid.coords t) d (iblk m c w t) :=
  (dat.before_in_eq_fetched w hw hlive hclip (fun t => by rw [hafter]; unfold Dat.blockOf iblk; rw [hA]) t d).trans
    (by unfold Dat.fetched Dat.blockOf iblk; rw [hA])

/-! ## The body's accesses -/

/-- Rows `1024 j .. 1024 j + 1023` of the resident feature matrix. -/
abbrev rRows (i : grid0.Coords) : Rect S8192x128 := Rect.unit (s := S8192x128) (k0_off1 i) S1024x128.size (k0_off1_inb i)
/-- Lanes `1024 j .. 1024 j + 1023` of the resident row of squared norms. -/
abbrev rLanes (i : grid0.Coords) : Rect S1x8192 := Rect.unit (s := S1x8192) (k0_off2 i) S1x1024.size (k0_off2_inb i)
abbrev rFi : Rect S1024x128 := Rect.unit (s := S1024x128) ![0, 0] S1024x128.size inb_S1024x128_S1024x128_0_0
abbrev rSqi : Rect S1024x1 := Rect.unit (s := S1024x1) ![0, 0] S1024x1.size inb_S1024x1_S1024x1_0_0
abbrev rOut : Rect S1024x1024 := Rect.unit (s := S1024x1024) ![0, 0] S1024x1024.size inb_S1024x1024_S1024x1024_0_0

/-- What the body leaves in the output's staging buffer at grid coordinates `i`, from what the four input buffers
    hold: its one store, of the payload over the four loads. -/
def outBlock (i : grid0.Coords) (x0 : Vec F S1024x128 .bf16) (x1 : Vec F S8192x128 .bf16) (x2 : Vec F S1024x1 .f32)
    (x3 : Vec F S1x8192 .f32) : Vec F S1024x1024 .f32 :=
  View.canon [⟨rOut, k0_pay1 (View.ld x1 (rRows i)) (View.ld x3 (rLanes i)) (View.ld x0 rFi) (View.ld x2 rSqi)⟩]

/-- The one store fills the buffer. -/
theorem outCover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The body on whole staging memrefs, the inputs' at read contents `x0 .. x3` and the output's at anything, runs to
    the continuation holding the inputs' as they were and the output's at `outBlock`. -/
theorem sound_kernel (c : Dev nD) (E : Set ℕ) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .f32) (harg4 : arg4.IsWhole) (arg5 : Memref sig .tc .vmem S1x8192 .f32) (harg5 : arg5.IsWhole)
    (arg6 : Memref sig .tc .vmem S1024x1024 .f32) (harg6 : arg6.IsWhole)
    (x0 : Vec F S1024x128 .bf16) (x1 : Vec F S8192x128 .bf16) (x2 : Vec F S1024x1 .f32) (x3 : Vec F S1x8192 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock i x0 x1 x2 x3)) -∗ K ⟨⟩))
      ⊢ wp frame (wpE (defs₀ (F := F)) Variants.none c none) E (cc0__sim_kernel i arg2 harg2 arg3 harg3 arg4 harg4 arg5 harg5 arg6 harg6) K := by
  simp only [cc0__sim_kernel_eq_skeleton]; unfold cc0__sim_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

end Cert.KernelIdeal.Hand

end
-- ==== Proof.RunKI.lean ====
/-
  The pipeline's proof data for the idealized kernel, the body's obligation at every grid point, how the one array
  two windows read is divided between them, and the run.
-/
import proofs.«166201_j32658931319006_2_alg».proof.Proof.FrameKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data on core `c`: the arrays as the region finds them; after the body at point `t` each input's
    buffer still at its block and the output's at `outBlock` of the four input blocks; the invariant the core's scoped
    buffers that are no staging buffer; nothing owed; the feature matrix's two windows each hold one half of its
    ownership, every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (grid0.coords t) (iblk m c 0 t) (iblk m c 1 t) (iblk m c 2 t) (iblk m c 3 t) := by dsimp only [dats]

/-- Each input's current staging buffer holds its block at every point. -/
theorem before0_0 (c : Dev nD) (t : Fin cfg0.N) (d) : (dats m 0 c).before 0 t d = iblk m c 0 t :=
  (before_in_of m (dats m 0 c) 0 rfl (fun _ => rfl) (fun _ _ _ => rfl) (A_eq m c 0) (fun t => by rw [after0_0]) t d).trans rfl
theorem before0_1 (c : Dev nD) (t : Fin cfg0.N) (d) : (dats m 0 c).before 1 t d = iblk m c 1 t :=
  (before_in_of m (dats m 0 c) 1 rfl (fun _ => rfl) (fun _ _ _ => rfl) (A_eq m c 1) (fun t => by rw [after0_1]) t d).trans rfl
theorem before0_2 (c : Dev nD) (t : Fin cfg0.N) (d) : (dats m 0 c).before 2 t d = iblk m c 2 t :=
  (before_in_of m (dats m 0 c) 2 rfl (fun _ => rfl) (fun _ _ _ => rfl) (A_eq m c 2) (fun t => by rw [after0_2]) t d).trans rfl
theorem before0_3 (c : Dev nD) (t : Fin cfg0.N) (d) : (dats m 0 c).before 3 t d = iblk m c 3 t :=
  (before_in_of m (dats m 0 c) 3 rfl (fun _ => rfl) (fun _ _ _ => rfl) (A_eq m c 3) (fun t => by rw [after0_3]) t d).trans rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.LaunchKI.lean ====
/-
  The launch of the idealized kernel's region and what the run leaves in memory.

  The feature matrix is read through two windows. The launch hands the pipeline each array's buffer whole; this
  module divides the feature matrix's buffer into two halves of its ownership, one per window, and leaves every other
  array whole. Both windows only read, so each keeps its half at the contents the region found. Every buffer no
  window stages (the argument array among them) goes round the region and is read back at the end as the region
  found it.
-/
import proofs.«166201_j32658931319006_2_alg».proof.Proof.RunKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, listed: the feature matrix (two windows), the column of squared norms,
    the row of squared norms, the distances. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v4) ↦{fullShare} W main_v4)
          ∗ (((c : Thread nD τ).loc main_v5) ↦{fullShare} W main_v5) ∗ (((c : Thread nD τ).loc main_v6) ↦{fullShare} W main_v6)) := by
  unfold Pipeline.arrBufs
  exact bigSep_eq_bigSepL_of_eq [main_v0, main_v4, main_v5, main_v6] (by decide) (by decide) _

/-- The launch's whole buffers make the proof data's arrays at entry: the feature matrix's buffer divided in two. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have e0 : (cfg0.win 0).arr.view.set = Finset.univ := (arr_whole0 0).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  rw [e0, e2, e3, e4]
  iintro ⟨HA, H4, H5, H6⟩
  ihave HB := (pointsTo_share (PosShare.mem_left_op_right fullShare)).1 $$ HA
  icases HB with ⟨Hl, Hr⟩
  isplitl [Hl]; · iexact Hl
  isplitl [Hr]; · iexact Hr
  isplitl [H4]; · iexact H4
  isplitl [H5]; · iexact H5
  iexact H6

/-- What the run leaves: the distance array at what the write-backs left, the argument array as launched. -/
def RunPost (r : PUnit × MemSt nD τ sig (Elt F)) : Prop :=
  ∀ c : Dev nD, r.2.mem ((c.tc : Thread nD τ).loc main_v6) = (dats m 0 c).arrAt 4 cfg0.N
    ∧ r.2.mem ((c.tc : Thread nD τ).loc main_arg0) = m ((c.tc : Thread nD τ).loc main_arg0)

set_option backward.isDefEq.respectTransparency.types false in
/-- For any float values, from any memory with zero counters: every weakly fair execution of @main terminates, nothing
    faulting, the distance array holding what the write-backs left and the argument array unchanged. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => Idealize.SL.BI.emp_sep_elim)
    (hout := fun c => Idealize.SL.BI.emp_sep_intro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1 4,
      ((h c).2 main_arg0 (Pipeline.mem_restRefs_of main_arg0 (by decide) (by decide))).trans (V_main_arg0 m c)⟩)

/-- The frame: the program runs to the end, nothing faulting, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.LibGram.lean ====
/-
  General facts about arrays of extended reals read at an index given by coordinates.

  * A matrix product of an A by K matrix with the TRANSPOSE of a B by K matrix (both operands contracted along their
    second axis), accumulated into zero: entry (p, q) is the sum over k of l (p, k) r (q, k).
  * A column [a, 1] broadcast along lanes to [a, b] reads, at (p, c), the column at (p, 0).
  * A vector [a] cast to a column [a, 1] reads, at (p, 0), the vector at p.
  * Subtracting from the zero of the single-precision format is negation, at every extended real.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibGram

open Idealize.ShloMosaic Idealize.ShloMosaic.ValueIdx

/-- Entry (p, q) of `l rᵀ` into the zero accumulator is the sum over the shared second axis. The dimension record
    is any whose operand indices are (row, contraction) on the left and (column, contraction) on the right, which the
    four coordinate hypotheses say. -/
theorem matmul_zero_nt_ix2 {A K B : ℕ} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (i (1 : Fin 2)).val)
    (hr1 : ∀ i q, (d.rhsIdx i q (1 : Fin 2)).val = (q ⟨0, by omega⟩).val)
    (prec : Option ContractPrecision)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

variable {α : Type}

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- On the extended reals, the single-precision zero less `y` is `-y`. -/
theorem zero_f32_sub (y : EReal) : Ideal.ofBits .f32 0x00000000#32 - y = -y := by
  rw [Ideal.ofBits_zero_f32, sub_eq_add_neg, zero_add]

end Cert.LibGram

end
-- ==== Proof.PayloadKI.lean ====
/-
  The body's arithmetic at one entry of the output block.

  With `fj` the 1024 rows of the feature matrix the body cut out for its column block, `sqj` the 1024 squared norms it
  cut out of the row of norms, `fi` the row block and `sqi` its column of squared norms, entry (p, q) of what the body
  stores is `-(sqrt (max ((sqi p + sqj q) - 2 ∑ k, fi (p, k) fj (q, k)) 0))`: the two broadcasts pick row p of the
  column and lane q of the row, the matrix product into zero is the inner product of row p of `fi` with row q of `fj`,
  the rest is pointwise, and zero less a number is its negative.
-/
import proofs.«166201_j32658931319006_2_alg».proof.Proof.Gen.KernelIdeal.Skeleton
import proofs.«166201_j32658931319006_2_alg».proof.Proof.LibGram

noncomputable section

namespace Cert.KernelIdeal.HandValue

open Cert.KernelIdeal Cert.KernelIdeal.Gen
open Idealize.ShloMosaic Idealize.ShloMosaic.ValueIdx

/-! ## The product's operand indices -/

theorem dot_l0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
theorem dot_l1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem dot_r0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl
theorem dot_r1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-! ## The payload at an entry -/

/-- Entry (p, q) of the stored block from the four loaded values. -/
theorem payload_apply (fj : Vec Ideal S1024x128 .bf16) (sqj : Vec Ideal S1x1024 .f32) (fi : Vec Ideal S1024x128 .bf16)
    (sqi : Vec Ideal S1024x1 .f32) (p q : Fin 1024) :
    k0_pay1 (F := Ideal) fj sqj fi sqi (ix2 p q)
      = -(Ideal.sqrt (max ((sqi (ix2 p (0 : Fin 1)) + sqj (ix2 (0 : Fin 1) q))
            - Ideal.ofBits .f32 0x40000000#32 * ∑ k : Fin 128, fi (ix2 p k) * fj (ix2 q k)) (Ideal.ofBits .f32 0x00000000#32))) := by
  unfold k0_pay1
  show Ideal.ofBits .f32 0x00000000#32 - Ideal.sqrt (max
      ((broadcastTo S1024x1024 (shapeCast S1024x1 sqi shapeCasts_S1024x1_S1024x1) broadcasts_S1024x1_S1024x1024 (ix2 p q)
          + broadcastTo S1024x1024 (shapeCast S1x1024 sqj shapeCasts_S1x1024_S1x1024) broadcasts_S1x1024_S1024x1024 (ix2 p q))
        - Ideal.ofBits .f32 0x40000000#32 * FloatOps.matmul dot_S1024x128_S1024x128_S1024x1024_1_1_0_0_n_n none
            (shapeCast S1024x128 fi shapeCasts_S1024x128_S1024x128) (shapeCast S1024x128 fj shapeCasts_S1024x128_S1024x128)
            (constant (F := Ideal) S1024x1024 .f32 0x00000000#32) (ix2 p q))
      (Ideal.ofBits .f32 0x00000000#32)) = _
  rw [Cert.LibGram.zero_f32_sub, shapeCast_self sqi, shapeCast_self sqj, shapeCast_self fi, shapeCast_self fj,
    Cert.LibGram.broadcastTo_a1_ab_apply, broadcastTo_1b_ab_apply,
    Cert.LibGram.matmul_zero_nt_ix2 dot_S1024x128_S1024x128_S1024x1024_1_1_0_0_n_n rfl rfl dot_l0 dot_l1 dot_r0 dot_r1]

end Cert.KernelIdeal.HandValue

end
-- ==== Proof.Spec.lean ====
/-
  The function both programs compute, over the extended reals.

  For a feature matrix `x` of 8192 rows of 128 numbers: `sq x p` is the zero of the format plus the sum of the squares
  of row p; `gram x p q` the inner product of rows p and q; entry (p, q) of the result is
  `-(sqrt (max ((sq p + sq q) - 2 gram p q) 0))`, minus the Euclidean distance of the two rows when nothing is
  infinite. The constants 0 and 2 are kept as the single-precision words the programs spell, the same words on both
  sides.
-/
import Idealize.ShloMosaic.PureOps.Ideal.Laws
import Idealize.ShloMosaic.Lib.ValueIdx

noncomputable section

namespace Cert.Spec

open Idealize.ShloMosaic Idealize.ShloMosaic.ValueIdx

/-- The start of the row sums plus the sum of the squares of row `p`. -/
def sq (x : (⟨2, ![8192, 128]⟩ : Shape).Idx → EReal) (p : Fin 8192) : EReal :=
  Ideal.ofBits .f32 0x00000000#32 + ∑ k : Fin 128, x (ix2 p k) * x (ix2 p k)

/-- The inner product of rows `p` and `q`. -/
def gram (x : (⟨2, ![8192, 128]⟩ : Shape).Idx → EReal) (p q : Fin 8192) : EReal :=
  ∑ k : Fin 128, x (ix2 p k) * x (ix2 q k)

/-- Entry `(p, q)` of the result. -/
def entry (x : (⟨2, ![8192, 128]⟩ : Shape).Idx → EReal) (p q : Fin 8192) : EReal :=
  -(Ideal.sqrt (max ((sq x p + sq x q) - Ideal.ofBits .f32 0x40000000#32 * gram x p q) (Ideal.ofBits .f32 0x00000000#32)))

/-- The whole result array. -/
def G (x : (⟨2, ![8192, 128]⟩ : Shape).Idx → EReal) : (⟨2, ![8192, 8192]⟩ : Shape).Idx → EReal :=
  fun i => entry x (i 0) (i 1)

end Cert.Spec

end
-- ==== Proof.ValueKI.lean ====
/-
  What the idealized kernel leaves in the distance array: the specification of the argument array.

  The region finds the feature matrix equal to the argument (the change of format is the identity on the extended
  reals) and the column and the row of squared norms at `sq` of each row. At grid point `t`, with (a, b) the block
  indices of the output window, the row block holds rows 1024 a .., the body cuts rows and lanes 1024 b .. out of the
  two resident arrays, so entry (p, q) of what is written back is entry (1024 a + p, 1024 b + q) of the specification.
  The 64 output blocks tile the array, so the array ends holding the specification everywhere.
-/
import proofs.«166201_j32658931319006_2_alg».proof.Proof.LaunchKI
import proofs.«166201_j32658931319006_2_alg».proof.Proof.PayloadKI
import proofs.«166201_j32658931319006_2_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-- The argument array on core `c`. -/
abbrev X (c : Dev nD) : S8192x128.Idx → EReal := m ((c : Thread nD τ).loc main_arg0)

/-! ## What the region finds, read at an index -/

/-- The host's sum along the rows at row `p`: the start plus the sum of the row. -/
theorem rowsum_apply (y : FVec Ideal S8192x128 .f32) (p : Fin 8192) :
    Host.reduceAdd (F := Ideal) y (constant S_ .f32 0x00000000#32) reducesTo_S8192x128_S8192_d1 h_S_ (ix1 p)
      = Ideal.ofBits .f32 0x00000000#32 + ∑ k : Fin 128, y (ix2 p k) := by
  simp only [Host.reduceAdd, Ideal.hostReduceAdd_def]
  rw [Ideal.hostReduceAdd_single reducesTo_S8192x128_S8192_d1 (by decide)]
  refine congrArg (_ + ·) (Finset.sum_congr rfl fun k _ => ?_)
  exact congrArg y (funext fun a => Fin.ext (by match a with | ⟨0, _⟩ => rfl | ⟨1, _⟩ => rfl))

/-- The feature matrix the windows read is the argument array. -/
theorem V_feat (c : Dev nD) : (V m c main_v0 : S8192x128.Idx → EReal) = X m c := by
  dsimp only [V, hostOps0]; after_results; rfl

theorem V_sqcol (c : Dev nD) : (V m c main_v4 : S8192x1.Idx → EReal)
    = shapeCast S8192x1 (Host.reduceAdd (F := Ideal) (mulf (X m c) (X m c)) (constant S_ .f32 0x00000000#32)
        reducesTo_S8192x128_S8192_d1 h_S_) shapeCasts_S8192_S8192x1 := by
  dsimp only [V, hostOps0]; after_results; rfl

theorem V_sqrow (c : Dev nD) : (V m c main_v5 : S1x8192.Idx → EReal)
    = shapeCast S1x8192 (Host.reduceAdd (F := Ideal) (mulf (X m c) (X m c)) (constant S_ .f32 0x00000000#32)
        reducesTo_S8192x128_S8192_d1 h_S_) shapeCasts_S8192_S1x8192 := by
  dsimp only [V, hostOps0]; after_results; rfl

/-- The column of squared norms at row `r`. -/
theorem sqcol_apply (c : Dev nD) (r : Fin 8192) (u : Fin 1) :
    (V m c main_v4 : S8192x1.Idx → EReal) (ix2 r u) = Cert.Spec.sq (X m c) r := by
  rw [V_sqcol, Cert.LibGram.shapeCast_a_a1_apply, rowsum_apply]; rfl

/-- The row of squared norms at lane `r`. -/
theorem sqrow_apply (c : Dev nD) (u : Fin 1) (r : Fin 8192) :
    (V m c main_v5 : S1x8192.Idx → EReal) (ix2 u r) = Cert.Spec.sq (X m c) r := by
  rw [V_sqrow, shapeCast_a_1a_apply, rowsum_apply]; rfl

/-! ## The windows' blocks read at an index -/

theorem hz : (![0, 0] : Fin 2 → Nat) = fun _ => 0 := funext fun a => by fin_cases a <;> rfl

/-- The index maps, decided over the 64 grid points: the row block and its norms move with the output's first block
    index, the two resident windows stay at block (0, 0), and the body's cuts start at 1024 times the output's second
    block index. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = 0
    ∧ k0_off1 (grid0.coords t) = ![1024 * win0_4.index t (1 : Fin 2), 0]
    ∧ k0_off2 (grid0.coords t) = ![0, 1024 * win0_4.index t (1 : Fin 2)]
    ∧ win0_4.index t (0 : Fin 2) ≤ 7 ∧ win0_4.index t (1 : Fin 2) ≤ 7 :=
  (by decide +kernel : ∀ t : Fin grid0.N, _)

/-- Every block of the output is some point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-- The row block at (p, k): row `1024 a + p` of the argument. -/
theorem iblk0_apply (c : Dev nD) (t : Fin cfg0.N) (a : ℕ) (ha : a ≤ 7)
    (h0 : win0_0.index t (0 : Fin 2) = a) (h1 : win0_0.index t (1 : Fin 2) = 0) (p : Fin 1024) (k : Fin 128) :
    iblk m c 0 t (ix2 p k) = X m c (ix2 (⟨a * 1024 + p.val, by omega⟩ : Fin 8192) k) := by
  show V m c main_v0 (((cfg0.win 0).blk t).view.emb (ix2 p k)) = _
  rw [V_feat]
  refine congrArg (X m c) (funext fun ax => Fin.ext ?_)
  match ax with
  | ⟨0, _⟩ => show win0_0.index t (0 : Fin 2) * 1024 + 1 * p.val = a * 1024 + p.val; rw [h0]; omega
  | ⟨1, _⟩ => show win0_0.index t (1 : Fin 2) * 128 + 1 * k.val = k.val; rw [h1]; omega

/-- The resident feature matrix at (r, k): the argument there. -/
theorem iblk1_apply (c : Dev nD) (t : Fin cfg0.N)
    (h0 : win0_1.index t (0 : Fin 2) = 0) (h1 : win0_1.index t (1 : Fin 2) = 0) (r : Fin 8192) (k : Fin 128) :
    iblk m c 1 t (ix2 r k) = X m c (ix2 r k) := by
  show V m c main_v0 (((cfg0.win 1).blk t).view.emb (ix2 r k)) = _
  rw [V_feat]
  refine congrArg (X m c) (funext fun ax => Fin.ext ?_)
  match ax with
  | ⟨0, _⟩ => show win0_1.index t (0 : Fin 2) * 8192 + 1 * r.val = r.val; rw [h0]; omega
  | ⟨1, _⟩ => show win0_1.index t (1 : Fin 2) * 128 + 1 * k.val = k.val; rw [h1]; omega

/-- The block of the column of squared norms at row p: `sq` of row `1024 a + p`. -/
theorem iblk2_apply (c : Dev nD) (t : Fin cfg0.N) (a : ℕ) (ha : a ≤ 7)
    (h0 : win0_2.index t (0 : Fin 2) = a) (h1 : win0_2.index t (1 : Fin 2) = 0) (p : Fin 1024) (u : Fin 1) :
    iblk m c 2 t (ix2 p u) = Cert.Spec.sq (X m c) (⟨a * 1024 + p.val, by omega⟩ : Fin 8192) := by
  show V m c main_v4 (((cfg0.win 2).blk t).view.emb (ix2 p u)) = _
  have e : ((cfg0.win 2).blk t).view.emb (ix2 p u) = ix2 (⟨a * 1024 + p.val, by omega⟩ : Fin 8192) (0 : Fin 1) :=
    funext fun ax => Fin.ext (by
      match ax with
      | ⟨0, _⟩ => show win0_2.index t (0 : Fin 2) * 1024 + 1 * p.val = a * 1024 + p.val; rw [h0]; omega
      | ⟨1, _⟩ => show win0_2.index t (1 : Fin 2) * 1 + 1 * u.val = 0; rw [h1]; omega)
  rw [e]
  exact sqcol_apply m c _ _

/-- The resident row of squared norms at lane r: `sq` of row r. -/
theorem iblk3_apply (c : Dev nD) (t : Fin cfg0.N)
    (h0 : win0_3.index t (0 : Fin 2) = 0) (h1 : win0_3.index t (1 : Fin 2) = 0) (u : Fin 1) (r : Fin 8192) :
    iblk m c 3 t (ix2 u r) = Cert.Spec.sq (X m c) r := by
  show V m c main_v5 (((cfg0.win 3).blk t).view.emb (ix2 u r)) = _
  have e : ((cfg0.win 3).blk t).view.emb (ix2 u r) = ix2 (0 : Fin 1) r :=
    funext fun ax => Fin.ext (by
      match ax with
      | ⟨0, _⟩ => show win0_3.index t (0 : Fin 2) * 1 + 1 * u.val = 0; rw [h0]; omega
      | ⟨1, _⟩ => show win0_3.index t (1 : Fin 2) * 8192 + 1 * r.val = r.val; rw [h1]; omega)
  rw [e]
  exact sqrow_apply m c _ _

end Cert.KernelIdeal.HandValue

end
-- ==== Proof.FinalKI.lean ====
/-
  From what each grid point writes back to the whole distance array, and the run read at the specification.
-/
import proofs.«166201_j32658931319006_2_alg».proof.Proof.ValueKI

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-- Entry (p, q) of what point `t` leaves in the output's buffer, `(a, b)` the output's block indices there: entry
    `(1024 a + p, 1024 b + q)` of the specification. -/
theorem out_entry (c : Dev nD) (t : Fin cfg0.N) (a b : ℕ) (ha : a ≤ 7) (hb : b ≤ 7)
    (f00 : win0_0.index t (0 : Fin 2) = a) (f01 : win0_0.index t (1 : Fin 2) = 0)
    (f10 : win0_1.index t (0 : Fin 2) = 0) (f11 : win0_1.index t (1 : Fin 2) = 0)
    (f20 : win0_2.index t (0 : Fin 2) = a) (f21 : win0_2.index t (1 : Fin 2) = 0)
    (f30 : win0_3.index t (0 : Fin 2) = 0) (f31 : win0_3.index t (1 : Fin 2) = 0)
    (ho1 : k0_off1 (grid0.coords t) = ![1024 * b, 0]) (ho2 : k0_off2 (grid0.coords t) = ![0, 1024 * b])
    (p q : Fin 1024) :
    (dats m 0 c).after 4 t (ix2 p q)
      = Cert.Spec.entry (X m c) (⟨a * 1024 + p.val, by omega⟩ : Fin 8192) (⟨b * 1024 + q.val, by omega⟩ : Fin 8192) := by
  rw [after0_4]
  unfold outBlock
  rw [View.canon_unit_zero hz, payload_apply]
  have o10 : k0_off1 (grid0.coords t) (0 : Fin 2) = 1024 * b := by rw [ho1]; rfl
  have o11 : k0_off1 (grid0.coords t) (1 : Fin 2) = 0 := by rw [ho1]; rfl
  have o20 : k0_off2 (grid0.coords t) (0 : Fin 2) = 0 := by rw [ho2]; rfl
  have o21 : k0_off2 (grid0.coords t) (1 : Fin 2) = 1024 * b := by rw [ho2]; rfl
  have e_sqi : View.ld (iblk m c 2 t) rSqi (ix2 p (0 : Fin 1))
      = Cert.Spec.sq (X m c) (⟨a * 1024 + p.val, by omega⟩ : Fin 8192) := by
    show iblk m c 2 t (rSqi.idx (ix2 p (0 : Fin 1))) = _
    have e : rSqi.idx (ix2 p (0 : Fin 1)) = ix2 p (0 : Fin 1) := funext fun ax => Fin.ext (by
      match ax with
      | ⟨0, _⟩ => show 0 + 1 * p.val = p.val; omega
      | ⟨1, _⟩ => show 0 + 1 * 0 = 0; rfl)
    rw [e]
    exact iblk2_apply m c t a ha f20 f21 p 0
  have e_sqj : View.ld (iblk m c 3 t) (rLanes (grid0.coords t)) (ix2 (0 : Fin 1) q)
      = Cert.Spec.sq (X m c) (⟨b * 1024 + q.val, by omega⟩ : Fin 8192) := by
    show iblk m c 3 t ((rLanes (grid0.coords t)).idx (ix2 (0 : Fin 1) q)) = _
    have e : (rLanes (grid0.coords t)).idx (ix2 (0 : Fin 1) q) = ix2 (0 : Fin 1) (⟨b * 1024 + q.val, by omega⟩ : Fin 8192) :=
      funext fun ax => Fin.ext (by
        match ax with
        | ⟨0, _⟩ => show k0_off2 (grid0.coords t) (0 : Fin 2) + 1 * 0 = 0; rw [o20]
        | ⟨1, _⟩ => show k0_off2 (grid0.coords t) (1 : Fin 2) + 1 * q.val = b * 1024 + q.val; rw [o21]; omega)
    rw [e]
    exact iblk3_apply m c t f30 f31 0 _
  have e_fi : ∀ k : Fin 128, View.ld (iblk m c 0 t) rFi (ix2 p k)
      = X m c (ix2 (⟨a * 1024 + p.val, by omega⟩ : Fin 8192) k) := fun k => by
    show iblk m c 0 t (rFi.idx (ix2 p k)) = _
    have e : rFi.idx (ix2 p k) = ix2 p k := funext fun ax => Fin.ext (by
      match ax with
      | ⟨0, _⟩ => show 0 + 1 * p.val = p.val; omega
      | ⟨1, _⟩ => show 0 + 1 * k.val = k.val; omega)
    rw [e]
    exact iblk0_apply m c t a ha f00 f01 p k
  have e_fj : ∀ k : Fin 128, View.ld (iblk m c 1 t) (rRows (grid0.coords t)) (ix2 q k)
      = X m c (ix2 (⟨b * 1024 + q.val, by omega⟩ : Fin 8192) k) := fun k => by
    show iblk m c 1 t ((rRows (grid0.coords t)).idx (ix2 q k)) = _
    have e : (rRows (grid0.coords t)).idx (ix2 q k) = ix2 (⟨b * 1024 + q.val, by omega⟩ : Fin 8192) k :=
      funext fun ax => Fin.ext (by
        match ax with
        | ⟨0, _⟩ => show k0_off1 (grid0.coords t) (0 : Fin 2) + 1 * q.val = b * 1024 + q.val; rw [o10]; omega
        | ⟨1, _⟩ => show k0_off1 (grid0.coords t) (1 : Fin 2) + 1 * k.val = k.val; rw [o11]; omega)
    rw [e]
    exact iblk1_apply m c t f10 f11 _ k
  rw [e_sqi, e_sqj]
  simp only [e_fi, e_fj]
  rfl

/-- What point `t` writes back is block `t` of the specification of the argument array. -/
theorem flushed_eq (c : Dev nD) (t : Fin cfg0.N) :
    (dats m 0 c).flushed 4 t = ((cfg0.win 4).blk t).view.read (Elt Ideal) (Cert.Spec.G (X m c)) := by
  obtain ⟨f00, f01, f10, f11, f20, f21, f30, f31, ho1, ho2, ha, hb⟩ := idx_facts t
  funext y
  obtain ⟨p, q, rfl⟩ : ∃ (p : Fin 1024) (q : Fin 1024), y = ix2 p q := ⟨y 0, y 1, eq_ix2 y⟩
  show (dats m 0 c).after 4 t (ix2 p q) = Cert.Spec.G (X m c) (((cfg0.win 4).blk t).view.emb (ix2 p q))
  rw [out_entry m c t _ _ ha hb f00 f01 f10 f11 f20 f21 f30 f31 ho1 ho2 p q]
  unfold Cert.Spec.G
  refine congrArg₂ (Cert.Spec.entry (X m c)) (Fin.ext ?_) (Fin.ext ?_)
  · show win0_4.index t (0 : Fin 2) * 1024 + p.val = win0_4.index t (0 : Fin 2) * 1024 + 1 * p.val; omega
  · show win0_4.index t (1 : Fin 2) * 1024 + q.val = win0_4.index t (1 : Fin 2) * 1024 + 1 * q.val; omega

/-- An index of the array is in point `t`'s block iff each coordinate is in the block's range on its axis. -/
theorem mem_blk (t : Fin cfg0.N) (i : S8192x8192.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v6).slice (win0_4.rect t)).set ↔ _
  rw [View.set_slice_whole, Rect.mem_set_unit]
  exact Iff.rfl

/-- Every entry of the array lies in the block of some point, which writes it back. -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- The distance array after the run is the specification of the argument array. -/
theorem final (c : Dev nD) : (dats m 0 c).arrAt 4 cfg0.N = Cert.Spec.G (X m c) :=
  (dats m 0 c).arrAt_eq_of_cover 4 (Cert.Spec.G (X m c)) (fun t _ => flushed_eq m c t) cover

/-- The idealized kernel's run: it ends with the distance array at the specification and the argument unchanged. -/
theorem run : θ_run defs (onTc (τ := τ) (main (F := Ideal))) ⟨m, fun _ => 0, ρ⟩ fun r => ∀ c : Dev nD,
      r.2.mem ((c.tc : Thread nD τ).loc main_v6) = Cert.Spec.G (X m c)
      ∧ r.2.mem ((c.tc : Thread nD τ).loc main_arg0) = m ((c.tc : Thread nD τ).loc main_arg0) :=
  (θ_run defs _ _).mono (fun r h c => ⟨(h c).1.trans (final m c), (h c).2⟩) (run_main m ρ)

end Cert.KernelIdeal.HandValue

end
-- ==== Proof.RefValue.lean ====
/-
  The reference computes the specification.

  Read one operation at a time at entry (p, q): the two broadcasts of the row sums pick rows p and q, the product with
  the transposed matrix is the inner product of rows p and q, and the rest is pointwise. The host's negation and square
  root are the negation and square root of the extended reals.
-/
import proofs.«166201_j32658931319006_2_alg».proof.Proof.Gen.ReferenceIdeal.Read
import proofs.«166201_j32658931319006_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's last stage is the specification of its argument. -/
theorem ref_eq (x : (⟨S8192x128, .f32⟩ : BufTy).Contents (Elt Ideal)) :
    val_main_v15 (F := Ideal) x = Cert.Spec.G x := by
  funext i
  obtain ⟨p, q, rfl⟩ : ∃ (p : Fin 8192) (q : Fin 8192), i = ix2 p q := ⟨i 0, i 1, eq_ix2 i⟩
  have e1 : ∀ k : Fin 128, idx_main_v1 (idx_main_v2 (idx_main_v4 (ix2 p q))) k = ix2 p k := fun k =>
    funext fun a => Fin.ext (by match a with | ⟨0, _⟩ => rfl | ⟨1, _⟩ => rfl)
  have e2 : ∀ k : Fin 128, idx_main_v1 (idx_main_v3 (idx_main_v5 (ix2 p q))) k = ix2 q k := fun k =>
    funext fun a => Fin.ext (by match a with | ⟨0, _⟩ => rfl | ⟨1, _⟩ => rfl)
  have e3 : ∀ k : Fin 128, lidx_main_v8 (ix2 p q) k = ix2 p k := fun k =>
    funext fun a => Fin.ext (by match a with | ⟨0, _⟩ => rfl | ⟨1, _⟩ => rfl)
  have e4 : ∀ k : Fin 128, idx_main_v7 (ridx_main_v8 (ix2 p q) k) = ix2 q k := fun k =>
    funext fun a => Fin.ext (by match a with | ⟨0, _⟩ => rfl | ⟨1, _⟩ => rfl)
  simp only [val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply, val_main_cst_apply,
    val_main_cst_0_apply, val_main_cst_1_apply, e1, e2, e3, e4]
  rfl

end Cert.ReferenceIdeal.RefValue

end
-- ==== Proof.lean ====
/-
  The certificate's claims.

  Both programs compute, entry by entry, minus the square root of `max ((|f_p|² + |f_q|²) - 2 ⟨f_p, f_q⟩) 0` for rows
  p and q of the feature matrix, the squared norms started from the format's zero (Proof/Spec.lean). The kernel forms
  it block by block on an 8 by 8 grid, reading the matrix through two windows of one array, rounding it to a shorter
  format first (the identity on the extended reals) and writing "zero less the root"; the reference forms it on whole
  arrays with a negation. Proof/FrameKI.lean, RunKI.lean and LaunchKI.lean run the idealized kernel for any float
  instance (FrameK / RunK / LaunchK state the same of the program as printed); Proof/PayloadKI.lean, ValueKI.lean and
  FinalKI.lean read what it leaves as the specification; Proof/RefValue.lean reads the reference's run as the same
  specification. The ideal pass rewrote nothing, so the idealization conjunct is trivial.
-/
import proofs.«166201_j32658931319006_2_alg».proof.Defs
import proofs.«166201_j32658931319006_2_alg».proof.Proof.Gen.Kernel
import proofs.«166201_j32658931319006_2_alg».proof.Proof.Gen.KernelIdeal
import proofs.«166201_j32658931319006_2_alg».proof.Proof.Gen.ReferenceIdeal
import proofs.«166201_j32658931319006_2_alg».proof.Proof.Gen.ReferenceIdeal.Run
import proofs.«166201_j32658931319006_2_alg».proof.Proof.Gen.ReferenceIdeal.Read
import proofs.«166201_j32658931319006_2_alg».proof.Proof.Gen.Pre_finite_inputs
import proofs.«166201_j32658931319006_2_alg».proof.Proof.LaunchK
import proofs.«166201_j32658931319006_2_alg».proof.Proof.FinalKI
import proofs.«166201_j32658931319006_2_alg».proof.Proof.RefValue
import Idealize.ShloMosaic.Adequacy
import Idealize.ShloMosaic.Init

noncomputable section

namespace Cert.Proof

open Idealize.ShloMosaic Idealize.ShloMosaic.TcCoe Idealize.SL.Sem

/-- The program as printed runs to the end and leaves its argument unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the argument, both programs end with the distance array at the specification of
    that argument. -/
theorem algebraic : Cert.algebraic_KernelIdeal_ReferenceIdeal := by
  intro m ρ m' ρ' _ hagree
  refine ⟨fun c => Cert.Spec.G (Cert.KernelIdeal.HandValue.X m c), Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
